-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S11008x1024 : Shape := ⟨2, ![11008, 1024]⟩
abbrev S4096 : Shape := ⟨1, ![4096]⟩
abbrev S11008 : Shape := ⟨1, ![11008]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S11008x1024 : S_.BroadcastsInDim S11008x1024 (![] : Fin 0 → Fin S11008x1024.rank)
  reducesTo_S11008x1024_S_d0_1 : S11008x1024.ReducesTo [0, 1] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x1024 .f32) (main_arg1 : FVec F S11008x1024 .f32) (main_arg2 : FVec F S4096 .f32) (main_arg3 : FVec F S11008 .f32) (main_arg4 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S11008x1024 .f32 := Host.absf main_arg1
  let main_cst_0 : FVec F S_ .f32 := constant S_ .f32 0x7F800000#32
  let main_v5 : FVec F S11008x1024 .f32 := broadcastInDim S11008x1024 ![] bcast_S_S11008x1024 main_cst_0
  let main_v6 : IVec S11008x1024 1 := cmpf .olt main_v4 main_v5
  let main_c_1 : IVec S_ 1 := constantI S_ 1 1#1
  let main_v7 : IVec S_ 1 := (fun x v => Host.reduce IntOp.andi x v reducesTo_S11008x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg4 main_v13 main_v16
-- ==== Kernel.lean ====
abbrev S4096x1024 : Shape := ⟨2, ![4096, 1024]⟩
abbrev S11008x1024 : Shape := ⟨2, ![11008, 1024]⟩
abbrev S4096 : Shape := ⟨1, ![4096]⟩
abbrev S11008 : Shape := ⟨1, ![11008]⟩
abbrev S1024 : Shape := ⟨1, ![1024]⟩
abbrev S1x1024 : Shape := ⟨2, ![1, 1024]⟩
abbrev S4096x1 : Shape := ⟨2, ![4096, 1]⟩
abbrev S1x11008 : Shape := ⟨2, ![1, 11008]⟩
abbrev S4096x11008 : Shape := ⟨2, ![4096, 11008]⟩
abbrev S512x1024 : Shape := ⟨2, ![512, 1024]⟩
abbrev S1024x1024 : Shape := ⟨2, ![1024, 1024]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S11008x1024, .f32⟩
  | .hbm, ⟨2, _⟩ => ⟨S4096, .f32⟩
  | .hbm, ⟨3, _⟩ => ⟨S11008, .f32⟩
  | .hbm, ⟨4, _⟩ => ⟨S1024, .f32⟩
  | .hbm, ⟨5, _⟩ => ⟨S1x1024, .f32⟩
  | .hbm, ⟨6, _⟩ => ⟨S4096x1, .f32⟩
  | .hbm, ⟨7, _⟩ => ⟨S1x11008, .f32⟩
  | .hbm, ⟨8, _⟩ => ⟨S4096x11008, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S512x1, .f32⟩
  | .local _ .vmem, ⟨6, _⟩ => ⟨S512x1, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S1024_S1x1024 : S1024.ShapeCasts S1x1024
  shapeCasts_S4096_S4096x1 : S4096.ShapeCasts S4096x1
  shapeCasts_S11008_S1x11008 : S11008.ShapeCasts S1x11008
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x1024_S512x1024 : S1x1024.Broadcasts S512x1024
  broadcasts_S512x1_S512x1024 : S512x1.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S11008x1024.size a
  hwx0_1 : ∀ i : grid0.Coords, EltTy.bits .f32 = 32 ∨ (Rect.unit (s := S11008x1024) (fun a => cc0_transform_1 i a * S1024x1024.size a) (fun a => (Pipeline.Clip.of (cc0_transform_1 i a) (S1024x1024.size a) (S11008x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S11008x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x11008.size a
  hwx0_4 : ∀ i : grid0.Coords, EltTy.bits .f32 = 32 ∨ (Rect.unit (s := S1x11008) (fun a => cc0_transform_4 i a * S1x1024.size a) (fun a => (Pipeline.Clip.of (cc0_transform_4 i a) (S1x1024.size a) (S1x11008.size a)).extent (S1x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x1024) (fun _ => 0) (fun a => (Pipeline.Clip.of (cc0_transform_4 i a) (S1x1024.size a) (S1x11008.size a)).extent (S1x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S512x1024.size a < S4096x11008.size a
  hwx0_5 : ∀ i : grid0.Coords, EltTy.bits .f32 = 32 ∨ (Rect.unit (s := S4096x11008) (fun a => cc0_transform_5 i a * S512x1024.size a) (fun a => (Pipeline.Clip.of (cc0_transform_5 i a) (S512x1024.size a) (S4096x11008.size a)).extent (S512x1024.size a)) fun a => Pipeline.Clip.inb (Pipeline.Clip.ok_of (hstart0_5 i a))).WholeWords (EltTy.packing .f32)
  hwxs0_5 : ∀ i : grid0.Coords, EltTy.bits .f32 = 32 ∨ (Rect.unit (s := S512x1024) (fun _ => 0) (fun a => (Pipeline.Clip.of (cc0_transform_5 i a) (S512x1024.size a) (S4096x11008.size a)).extent (S512x1024.size a)) fun a => (Nat.zero_add _).trans_le (Pipeline.Clip.extent_le (Pipeline.Clip.ok_of (hstart0_5 i a)))).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v2) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v3) S512x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S11008x1024 : Shape := ⟨2, ![11008, 1024]⟩
abbrev S4096 : Shape := ⟨1, ![4096]⟩
abbrev S11008 : Shape := ⟨1, ![11008]⟩
abbrev S1024 : Shape := ⟨1, ![1024]⟩
abbrev S_ : Shape := ⟨0, ![]⟩
abbrev S1x1024 : Shape := ⟨2, ![1, 1024]⟩
abbrev S4096x11008 : Shape := ⟨2, ![4096, 11008]⟩
abbrev S1x11008 : Shape := ⟨2, ![1, 11008]⟩
abbrev S4096x1 : Shape := ⟨2, ![4096, 1]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S11008x1024, .f32⟩
  | .hbm, ⟨2, _⟩ => ⟨S4096, .f32⟩
  | .hbm, ⟨3, _⟩ => ⟨S11008, .f32⟩
  | .hbm, ⟨4, _⟩ => ⟨S1024, .f32⟩
  | .hbm, ⟨5, _⟩ => ⟨S_, .f32⟩
  | .hbm, ⟨6, _⟩ => ⟨S4096x1024, .f32⟩
  | .hbm, ⟨7, _⟩ => ⟨S4096x1024, .i1⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S11008x1024, .f32⟩
  | .hbm, ⟨16, _⟩ => ⟨S11008x1024, .i1⟩
  | .hbm, ⟨17, _⟩ => ⟨S_, .f32⟩
  | .hbm, ⟨18, _⟩ => ⟨S11008x1024, .f32⟩
  | .hbm, ⟨19, _⟩ => ⟨S_, .f32⟩
  | .hbm, ⟨20, _⟩ => ⟨S11008x1024, .f32⟩
  | .hbm, ⟨21, _⟩ => ⟨S11008x1024, .f32⟩
  | .hbm, ⟨22, _⟩ => ⟨S11008x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x11008, .f32⟩
  | .hbm, ⟨27, _⟩ => ⟨S1x11008, .f32⟩
  | .hbm, ⟨28, _⟩ => ⟨S4096x11008, .f32⟩
  | .hbm, ⟨29, _⟩ => ⟨S4096x11008, .f32⟩
  | .hbm, ⟨30, _⟩ => ⟨S4096x1, .f32⟩
  | .hbm, ⟨31, _⟩ => ⟨S4096x11008, .f32⟩
  | .hbm, ⟨32, _⟩ => ⟨S4096x11008, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  bcast_S_S11008x1024 : S_.BroadcastsInDim S11008x1024 (![] : Fin 0 → Fin S11008x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  dot_S4096x1024_S11008x1024_S4096x11008_1_1_0_0_n_n_wf : DotDims.WF S4096x1024 S11008x1024 S4096x11008 [1] [1] [0] [0] [] []

variable [Facts₀]

def dot_S4096x1024_S11008x1024_S4096x11008_1_1_0_0_n_n : DotDims S4096x1024 S11008x1024 S4096x11008 where
  lhsContracting := [1]
  rhsContracting := [1]
  lhsNonContracting := [0]
  rhsNonContracting := [0]
  lhsBatch := []
  rhsBatch := []
  wf := dot_S4096x1024_S11008x1024_S4096x11008_1_1_0_0_n_n_wf

class Facts : Prop extends Facts₀ where

variable [Facts]
-- ==== Proof.KBody.lean ====
import proofs.«171177_j24412594110603_2_alg».proof.Proof.Gen.Kernel.Frame
import proofs.«171177_j24412594110603_2_alg».proof.Proof.Gen.Kernel.Skeleton
import Idealize.ShloMosaic.Lib.Pipeline.Value
import Idealize.ShloMosaic.Lib.Pipeline.FrameBody
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body on any staging buffers

The body branches on the inner grid coordinate.  When it is zero the body first reads the V block, takes its
hard sign and stores it over the whole scratch buffer; in either case it then reads the U block, the scale
row, the h column, the g row and the scratch, and stores one block of the result over the whole output
buffer.  Every load and store is of a whole buffer, so what a stored buffer holds afterwards is the stored
value itself, and a load reads the buffer's contents. -/

/-- The branch condition as a function of the grid coordinates: "the inner coordinate is zero". -/
abbrev firstInner (i : grid0.Coords) : Prop :=
  (Scalar.cmpi .ne (Scalar.extui (Scalar.cmpi .eq (BitVec.ofNat 32 (i 1).val) 0#32)) 0#32) = 1#1

/-- It holds exactly at the points whose number is a multiple of eight (the inner axis has eight points). -/
theorem firstInner_iff : ∀ t : Fin cfg0.N, firstInner (grid0.coords t) ↔ t.val % 8 = 0 :=
  (by decide +kernel : ∀ t : Fin grid0.N, firstInner (grid0.coords t) ↔ t.val % 8 = 0)

theorem zeros2 : (![0, 0] : Fin 2 → Nat) = fun _ => 0 := funext fun a => by fin_cases a <;> rfl

/-- One store over the whole of a buffer leaves the stored value. -/
theorem read_store_whole {S : Shape} {e : EltTy} (M : Memref sig .tc .vmem S e) (f : M.view.ty.Contents (Elt F))
    (off : Fin S.rank → Nat) (hz : off = fun _ => 0) (inb : ∀ a, off a + S.size a ≤ S.size a) (w : S.Idx → Elt F e) :
    M.view.read (Elt F) (M.view.writes (Elt F) f [⟨Rect.unit off S.size inb, w⟩]) = w := by
  rw [View.read_writes_eq_canon _ _ _ (fun y => ⟨_, List.mem_singleton_self _, View.mem_set_unit_zero hz inb y⟩),
    View.canon_unit_zero hz]

/-- A load of the whole of a buffer reads its contents. -/
theorem load_whole {S : Shape} {e : EltTy} (M : Memref sig .tc .vmem S e) (hM : M.IsWhole) (X : S.Idx → Elt F e)
    (off : Fin S.rank → Nat) (hz : off = fun _ => 0) (inb : ∀ a, off a + S.size a ≤ S.size a) :
    M.view.readAt (Elt F) (Rect.unit off S.size inb).toLoadRect (hM.unread X) = X := by
  rw [View.readAt_eq_ld, hM.read_unread, View.ld_unit_zero hz]

set_option maxHeartbeats 1000000 in
/-- At a point whose inner coordinate is zero: the scratch ends at the sign of the V buffer, the output buffer
    at the product block computed from that sign; the five input buffers are left as found. -/
theorem body_first (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole)
    (hc : firstInner i) (X0 : Vec F S512x1024 .f32) (X1 : Vec F S1024x1024 .f32) (X2 : Vec F S1x1024 .f32) (X3 : Vec F S512x1 .f32) (X4 : Vec F S1x1024 .f32) (X5 : Vec F S512x1024 .f32) (XS : Vec F S1024x1024 .bf16) (E : Set ℕ) (K : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5
        ∗ owns (c : Thread nD τ) arg8 fullShare XS
        ∗ (iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare (k0_pay2 X0 X2 X3 X4 (k0_pay1 X1))
        ∗ owns (c : Thread nD τ) arg8 fullShare (k0_pay1 X1)) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store_whole _ _ _ zeros2]
    sl_unfold_words
    rw [load_whole _ harg2 _ _ zeros2, load_whole _ harg4 _ _ zeros2, load_whole _ harg5 _ _ zeros2, load_whole _ harg6 _ _ zeros2,
      View.readCov_unit_zero _ zeros2, load_whole _ harg3 _ _ zeros2]
  · iexists _; isplitr
    swap; · iexact HS
    ipureintro
    sl_unfold_words
    rw [read_store_whole _ _ _ zeros2, load_whole _ harg3 _ _ zeros2]

set_option maxHeartbeats 1000000 in
/-- At any other point the scratch is only read: it is left as found, and the output buffer ends at the
    product block computed from it. -/
theorem body_later (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole)
    (hc : ¬firstInner i) (X0 : Vec F S512x1024 .f32) (X1 : Vec F S1024x1024 .f32) (X2 : Vec F S1x1024 .f32) (X3 : Vec F S512x1 .f32) (X4 : Vec F S1x1024 .f32) (X5 : Vec F S512x1024 .f32) (XS : Vec F S1024x1024 .bf16) (E : Set ℕ) (K : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5
        ∗ owns (c : Thread nD τ) arg8 fullShare XS
        ∗ (iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare (k0_pay2 X0 X2 X3 X4 XS)
        ∗ owns (c : Thread nD τ) arg8 fullShare XS) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store_whole _ _ _ zeros2]
    sl_unfold_words
    rw [load_whole _ harg2 _ _ zeros2, load_whole _ harg4 _ _ zeros2, load_whole _ harg5 _ _ zeros2, load_whole _ harg6 _ _ zeros2,
      load_whole _ harg8 _ _ zeros2]
  · iexists _; isplitr; · ipureintro; exact harg8.read_unread _
    iexact HS

/-! ## What the body finds in the two input windows whose last block overhangs its array

Window 1 (the V block, 1024 rows of an array of 11008 rows) and window 4 (the g block, 1024 columns of a row
of 11008) are refetched only when the outer grid coordinate moves.  Where the block overhangs the array the
fetch fills only its leading part; the rest of the buffer holds contents `d` nothing names.  Fetched at a
point or kept from the point before, the buffer holds the array's block on that leading part. -/

variable (m : (ℓ : Loc nD τ sig) → Buf (Elt F) ℓ)

theorem before0_1_of {c : Dev nD} (dat : Dat τ (Elt F) Unit ℕ (UR sig nD τ) ℕ cfg0 c) (hA : dat.A 1 = V m c (Pipeline.arrRef spec0 1))
    (hkeep : ∀ t, (cfg0.win 1).cut (cfg0.grid.coords t) (dat.after 1 t) = iblk m c 1 t) (t : Fin cfg0.N) (d) :
    dat.before 1 t d = (cfg0.win 1).fill (cfg0.grid.coords t) d (iblk m c 1 t) :=
  (dat.before_in_eq_fetched 1 rfl (fun _ => rfl)
    (fun t t' h => funext fun a => by
      show Pipeline.Clip.of (cc0_transform_1 (grid0.coords t) a) _ _ = Pipeline.Clip.of (cc0_transform_1 (grid0.coords t') a) _ _
      rw [show cc0_transform_1 (grid0.coords t) = cc0_transform_1 (grid0.coords t') from h])
    (fun t => by rw [hkeep]; unfold Dat.blockOf iblk; rw [hA]) t d).trans
    (by unfold Dat.fetched Dat.blockOf iblk; rw [hA])

theorem before0_4_of {c : Dev nD} (dat : Dat τ (Elt F) Unit ℕ (UR sig nD τ) ℕ cfg0 c) (hA : dat.A 4 = V m c (Pipeline.arrRef spec0 4))
    (hkeep : ∀ t, (cfg0.win 4).cut (cfg0.grid.coords t) (dat.after 4 t) = iblk m c 4 t) (t : Fin cfg0.N) (d) :
    dat.before 4 t d = (cfg0.win 4).fill (cfg0.grid.coords t) d (iblk m c 4 t) :=
  (dat.before_in_eq_fetched 4 rfl (fun _ => rfl)
    (fun t t' h => funext fun a => by
      show Pipeline.Clip.of (cc0_transform_4 (grid0.coords t) a) _ _ = Pipeline.Clip.of (cc0_transform_4 (grid0.coords t') a) _ _
      rw [show cc0_transform_4 (grid0.coords t) = cc0_transform_4 (grid0.coords t') from h])
    (fun t => by rw [hkeep]; unfold Dat.blockOf iblk; rw [hA]) t d).trans
    (by unfold Dat.fetched Dat.blockOf iblk; rw [hA])

/-- The scratch operand: a whole scoped buffer of the kernel's own. -/
abbrev scM : Memref sig .tc .vmem S1024x1024 .bf16 := Memref.whole cc0_scratch0

/-- What the region lends the body besides the windows: the scratch at some contents, and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KFrame.lean ====
/-
  The frame of the word-level program: it runs to the end, faults nowhere, and leaves its five argument arrays as
  they were.  Nothing is said here of what the result array ends holding: the output window's buffer is handed
  to the body at any contents and taken back at any contents.  The scratch buffer is likewise held at some
  contents between points.  What the body finds in each input window is that window's block (on the part of
  the buffer the fetch fills, for the two windows whose last block overhangs the array), and it leaves every
  input buffer as it found it.
-/
import proofs.«171177_j24412594110603_2_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one whose contents this frame does not name. -/
def forgets0 : Fin 6 → Bool := fun w => w.val == 5

/-- The proof data: the arrays as the region finds them; after the body each input window's buffer at its block
    (zero past the array's end where the block overhangs), the output window's unnamed; between points the
    scratch at some contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => win0_4.fill (grid0.coords t) (fun _ => Scalar.ofBits .f32 0#32) (iblk m c 4 t)
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = win0_4.fill (grid0.coords t) (fun _ => Scalar.ofBits .f32 0#32) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_1 (c : Dev nD) (t : Fin cfg0.N) (d) :
    (dats m 0 c).before 1 t d = win0_1.fill (grid0.coords t) d (iblk m c 1 t) :=
  before0_1_of m (dats m 0 c) (A_eq m c 1) (fun t => by rw [after0_1]; exact win0_1.cut_fill _ _ _) t d
theorem before0_4 (c : Dev nD) (t : Fin cfg0.N) (d) :
    (dats m 0 c).before 4 t d = win0_4.fill (grid0.coords t) d (iblk m c 4 t) :=
  before0_4_of m (dats m 0 c) (A_eq m c 4) (fun t => by rw [after0_4]; exact win0_4.cut_fill _ _ _) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ (∃ X, owns (c : Thread nD τ) (st0_5 t) fullShare X))

set_option maxHeartbeats 1600000 in
/-- The body at any point: by the inner coordinate, one of the two runs of the body. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, after0_0, after0_1, after0_2, after0_3, after0_4,
    Window.cut_fill]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  by_cases h0 : t.val % 8 = 0
  · iintro ⟨⟨⟨%ds, HS⟩, Hg⟩, Ho, ⟨%d0, H0⟩, ⟨%d1, H1⟩, ⟨%d2, H2⟩, ⟨%d3, H3⟩, ⟨%d4, H4⟩, ⟨%X5, H5⟩⟩
    iapply (body_first c (grid0.coords t) _ _ _ _ _ _ _ _ _ _ _ _ _ _ ((firstInner_iff t).mpr h0) (iblk m c 0 t)
      (win0_1.fill (grid0.coords t) d1 (iblk m c 1 t)) (iblk m c 2 t) (iblk m c 3 t) (win0_4.fill (grid0.coords t) d4 (iblk m c 4 t)) X5 ds Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]; · iexact H0
    isplitl [H1]; · iexists d1; iexact H1
    isplitl [H2]; · iexact H2
    isplitl [H3]; · iexact H3
    isplitl [H4]; · iexists d4; iexact H4
    iexists _; iexact H5
  · iintro ⟨⟨⟨%ds, HS⟩, Hg⟩, Ho, ⟨%d0, H0⟩, ⟨%d1, H1⟩, ⟨%d2, H2⟩, ⟨%d3, H3⟩, ⟨%d4, H4⟩, ⟨%X5, H5⟩⟩
    iapply (body_later c (grid0.coords t) _ _ _ _ _ _ _ _ _ _ _ _ _ _ (fun h => h0 ((firstInner_iff t).mp h)) (iblk m c 0 t)
      (win0_1.fill (grid0.coords t) d1 (iblk m c 1 t)) (iblk m c 2 t) (iblk m c 3 t) (win0_4.fill (grid0.coords t) d4 (iblk m c 4 t)) X5 ds Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists _; iexact HS
      iexact Hg
    isplitl [Ho]; · iexact Ho
    isplitl [H0]; · iexact H0
    isplitl [H1]; · iexists d1; iexact H1
    isplitl [H2]; · iexact H2
    isplitl [H3]; · iexact H3
    isplitl [H4]; · iexists d4; iexact H4
    iexists _; iexact H5

/-- The body obligation at every point, the output window forgotten. -/
theorem body_obligation (c : Dev nD) :
    BodyObligationLoose (dats (F := F) m 0 c) (defs₀ (F := F)) Variants.none () Set.univ forgets0 := fun t => by
  rw [bigSep_W0, bigSep_W0]
  exact sound_body m c t

set_option backward.isDefEq.respectTransparency.types false in
/-- Every weakly fair execution of the program terminates without a fault; the two staged argument arrays and
    every buffer the region bypasses end as the region found them. -/
theorem run_main : θ_run defs (onTc (τ := τ) (main (F := F))) (s₀ m ρ)
    (Pipeline.RDat.FramePost (cfgs 0) (fun c => (dats m 0 c).toRForget forgets0) (V m)) :=
  Pipeline.RDat.θ_run_frame cfgs (0 : Fin 1) launch0 defs₀ Variants.none (fun c => (dats m 0 c).toRForget forgets0) m ρ main
    (hbody := fun c => (body_obligation m c).toRForget)
    (hshare := fun c => ((dats m 0 c).toRForget forgets0).share_full fun _ => rfl)
    (howed := fun _ _ => rfl) (V := V m) (hmain := hmain m Variants.none) (hA := A_eq m) (hΦ := fun _ _ => rfl)

/-- The frame claim's post from that run: an input window's array is never written, a bypassing buffer is
    found as left, and no host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Eq.mp (congrFun (((dats m 0 c).toRForget forgets0).ArrAt_in 0 rfl _) _) ((h c).1 0)).trans ((A_eq m c 0).trans (V_main_arg0 m c)),
      (Eq.mp (congrFun (((dats m 0 c).toRForget forgets0).ArrAt_in 1 rfl _) _) ((h c).1 1)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.Kernel.Body

end
-- ==== Proof.IBody.lean ====
import proofs.«171177_j24412594110603_2_alg».proof.Proof.Gen.KernelIdeal.Frame
import proofs.«171177_j24412594110603_2_alg».proof.Proof.Gen.KernelIdeal.Skeleton
import Idealize.ShloMosaic.Lib.Pipeline.Value
import Idealize.ShloMosaic.Lib.Pipeline.FrameBody
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The kernel body on any staging buffers

The body branches on the inner grid coordinate.  When it is zero the body first reads the V block, takes its
hard sign and stores it over the whole scratch buffer; in either case it then reads the U block, the scale
row, the h column, the g row and the scratch, and stores one block of the result over the whole output
buffer.  Every load and store is of a whole buffer, so what a stored buffer holds afterwards is the stored
value itself, and a load reads the buffer's contents. -/

/-- The branch condition as a function of the grid coordinates: "the inner coordinate is zero". -/
abbrev firstInner (i : grid0.Coords) : Prop :=
  (Scalar.cmpi .ne (Scalar.extui (Scalar.cmpi .eq (BitVec.ofNat 32 (i 1).val) 0#32)) 0#32) = 1#1

/-- It holds exactly at the points whose number is a multiple of eight (the inner axis has eight points). -/
theorem firstInner_iff : ∀ t : Fin cfg0.N, firstInner (grid0.coords t) ↔ t.val % 8 = 0 :=
  (by decide +kernel : ∀ t : Fin grid0.N, firstInner (grid0.coords t) ↔ t.val % 8 = 0)

theorem zeros2 : (![0, 0] : Fin 2 → Nat) = fun _ => 0 := funext fun a => by fin_cases a <;> rfl

/-- One store over the whole of a buffer leaves the stored value. -/
theorem read_store_whole {S : Shape} {e : EltTy} (M : Memref sig .tc .vmem S e) (f : M.view.ty.Contents (Elt F))
    (off : Fin S.rank → Nat) (hz : off = fun _ => 0) (inb : ∀ a, off a + S.size a ≤ S.size a) (w : S.Idx → Elt F e) :
    M.view.read (Elt F) (M.view.writes (Elt F) f [⟨Rect.unit off S.size inb, w⟩]) = w := by
  rw [View.read_writes_eq_canon _ _ _ (fun y => ⟨_, List.mem_singleton_self _, View.mem_set_unit_zero hz inb y⟩),
    View.canon_unit_zero hz]

/-- A load of the whole of a buffer reads its contents. -/
theorem load_whole {S : Shape} {e : EltTy} (M : Memref sig .tc .vmem S e) (hM : M.IsWhole) (X : S.Idx → Elt F e)
    (off : Fin S.rank → Nat) (hz : off = fun _ => 0) (inb : ∀ a, off a + S.size a ≤ S.size a) :
    M.view.readAt (Elt F) (Rect.unit off S.size inb).toLoadRect (hM.unread X) = X := by
  rw [View.readAt_eq_ld, hM.read_unread, View.ld_unit_zero hz]

set_option maxHeartbeats 1000000 in
/-- At a point whose inner coordinate is zero: the scratch ends at the sign of the V buffer, the output buffer
    at the product block computed from that sign; the five input buffers are left as found. -/
theorem body_first (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole)
    (hc : firstInner i) (X0 : Vec F S512x1024 .f32) (X1 : Vec F S1024x1024 .f32) (X2 : Vec F S1x1024 .f32) (X3 : Vec F S512x1 .f32) (X4 : Vec F S1x1024 .f32) (X5 : Vec F S512x1024 .f32) (XS : Vec F S1024x1024 .bf16) (E : Set ℕ) (K : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5
        ∗ owns (c : Thread nD τ) arg8 fullShare XS
        ∗ (iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare (k0_pay2 X0 X2 X3 X4 (k0_pay1 X1))
        ∗ owns (c : Thread nD τ) arg8 fullShare (k0_pay1 X1)) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store_whole _ _ _ zeros2]
    sl_unfold_words
    rw [load_whole _ harg2 _ _ zeros2, load_whole _ harg4 _ _ zeros2, load_whole _ harg5 _ _ zeros2, load_whole _ harg6 _ _ zeros2,
      View.readCov_unit_zero _ zeros2, load_whole _ harg3 _ _ zeros2]
  · iexists _; isplitr
    swap; · iexact HS
    ipureintro
    sl_unfold_words
    rw [read_store_whole _ _ _ zeros2, load_whole _ harg3 _ _ zeros2]

set_option maxHeartbeats 1000000 in
/-- At any other point the scratch is only read: it is left as found, and the output buffer ends at the
    product block computed from it. -/
theorem body_later (c : Dev nD) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S1024x1024 .bf16) (harg8 : arg8.IsWhole)
    (hc : ¬firstInner i) (X0 : Vec F S512x1024 .f32) (X1 : Vec F S1024x1024 .f32) (X2 : Vec F S1x1024 .f32) (X3 : Vec F S512x1 .f32) (X4 : Vec F S1x1024 .f32) (X5 : Vec F S512x1024 .f32) (XS : Vec F S1024x1024 .bf16) (E : Set ℕ) (K : PUnit → sProp 𝕄) :
    iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare X5
        ∗ owns (c : Thread nD τ) arg8 fullShare XS
        ∗ (iprop(owns (c : Thread nD τ) arg2 fullShare X0 ∗ owns (c : Thread nD τ) arg3 fullShare X1 ∗ owns (c : Thread nD τ) arg4 fullShare X2
        ∗ owns (c : Thread nD τ) arg5 fullShare X3 ∗ owns (c : Thread nD τ) arg6 fullShare X4 ∗ owns (c : Thread nD τ) arg7 fullShare (k0_pay2 X0 X2 X3 X4 XS)
        ∗ owns (c : Thread nD τ) arg8 fullShare XS) -∗ K ⟨⟩))
      ⊢ wp frame (wpE (defs₀ (F := F)) Variants.none c none) E (cc0__kernel i arg2 harg2 arg3 harg3 arg4 harg4 arg5 harg5 arg6 harg6 arg7 harg7 arg8 harg8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_store_whole _ _ _ zeros2]
    sl_unfold_words
    rw [load_whole _ harg2 _ _ zeros2, load_whole _ harg4 _ _ zeros2, load_whole _ harg5 _ _ zeros2, load_whole _ harg6 _ _ zeros2,
      load_whole _ harg8 _ _ zeros2]
  · iexists _; isplitr; · ipureintro; exact harg8.read_unread _
    iexact HS

/-! ## What the body finds in the two input windows whose last block overhangs its array

Window 1 (the V block, 1024 rows of an array of 11008 rows) and window 4 (the g block, 1024 columns of a row
of 11008) are refetched only when the outer grid coordinate moves.  Where the block overhangs the array the
fetch fills only its leading part; the rest of the buffer holds contents `d` nothing names.  Fetched at a
point or kept from the point before, the buffer holds the array's block on that leading part. -/

variable (m : (ℓ : Loc nD τ sig) → Buf (Elt F) ℓ)

theorem before0_1_of {c : Dev nD} (dat : Dat τ (Elt F) Unit ℕ (UR sig nD τ) ℕ cfg0 c) (hA : dat.A 1 = V m c (Pipeline.arrRef spec0 1))
    (hkeep : ∀ t, (cfg0.win 1).cut (cfg0.grid.coords t) (dat.after 1 t) = iblk m c 1 t) (t : Fin cfg0.N) (d) :
    dat.before 1 t d = (cfg0.win 1).fill (cfg0.grid.coords t) d (iblk m c 1 t) :=
  (dat.before_in_eq_fetched 1 rfl (fun _ => rfl)
    (fun t t' h => funext fun a => by
      show Pipeline.Clip.of (cc0_transform_1 (grid0.coords t) a) _ _ = Pipeline.Clip.of (cc0_transform_1 (grid0.coords t') a) _ _
      rw [show cc0_transform_1 (grid0.coords t) = cc0_transform_1 (grid0.coords t') from h])
    (fun t => by rw [hkeep]; unfold Dat.blockOf iblk; rw [hA]) t d).trans
    (by unfold Dat.fetched Dat.blockOf iblk; rw [hA])

theorem before0_4_of {c : Dev nD} (dat : Dat τ (Elt F) Unit ℕ (UR sig nD τ) ℕ cfg0 c) (hA : dat.A 4 = V m c (Pipeline.arrRef spec0 4))
    (hkeep : ∀ t, (cfg0.win 4).cut (cfg0.grid.coords t) (dat.after 4 t) = iblk m c 4 t) (t : Fin cfg0.N) (d) :
    dat.before 4 t d = (cfg0.win 4).fill (cfg0.grid.coords t) d (iblk m c 4 t) :=
  (dat.before_in_eq_fetched 4 rfl (fun _ => rfl)
    (fun t t' h => funext fun a => by
      show Pipeline.Clip.of (cc0_transform_4 (grid0.coords t) a) _ _ = Pipeline.Clip.of (cc0_transform_4 (grid0.coords t') a) _ _
      rw [show cc0_transform_4 (grid0.coords t) = cc0_transform_4 (grid0.coords t') from h])
    (fun t => by rw [hkeep]; unfold Dat.blockOf iblk; rw [hA]) t d).trans
    (by unfold Dat.fetched Dat.blockOf iblk; rw [hA])

/-- The scratch operand: a whole scoped buffer of the kernel's own. -/
abbrev scM : Memref sig .tc .vmem S1024x1024 .bf16 := Memref.whole cc0_scratch0

/-- What the region lends the body besides the windows: the scratch at some contents, and the generator's register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.IIndex.lean ====
/-
  Where each window's block sits in its array, and what the blocks hold, at explicit coordinates.

  The grid has 88 points, point t at outer coordinate t / 8 (the V tile, 0..10) and inner coordinate t % 8 (the
  U tile, 0..7).  The U block at t is rows (t % 8) * 512 .. + 511 of U; the h block the same rows of the h
  column; the scale row is the whole of its array; the V block is rows (t / 8) * 1024 .. of V, the g block the
  same columns of the g row, and the result block rows (t % 8) * 512 .. and columns (t / 8) * 1024 .. of the
  result.  The last tile along the 11008 axis (t / 8 = 10) has 768 rows (columns) inside the array, the
  others 1024.  A buffer filled by a fetch of such a block holds the array's entries on that leading part.
-/
import proofs.«171177_j24412594110603_2_alg».proof.Proof.IBody
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The block index of every window at every point. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = t.val / 8
    ∧ win0_5.index t (0 : Fin 2) = t.val % 8 ∧ win0_5.index t (1 : Fin 2) = t.val / 8 :=
  (by decide +kernel : ∀ t : Fin grid0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = 0
    ∧ win0_3.index t (0 : Fin 2) = t.val % 8 ∧ win0_3.index t (1 : Fin 2) = 0
    ∧ win0_4.index t (0 : Fin 2) = 0 ∧ win0_4.index t (1 : Fin 2) = t.val / 8
    ∧ win0_5.index t (0 : Fin 2) = t.val % 8 ∧ win0_5.index t (1 : Fin 2) = t.val / 8)

/-- The extents the transfers of the three windows along the 11008 axis move at every point. -/
theorem xs_facts : ∀ t : Fin cfg0.N,
    win0_1.xsize (grid0.coords t) (0 : Fin 2) = (if t.val / 8 = 10 then 768 else 1024) ∧ win0_1.xsize (grid0.coords t) (1 : Fin 2) = 1024
    ∧ win0_4.xsize (grid0.coords t) (0 : Fin 2) = 1 ∧ win0_4.xsize (grid0.coords t) (1 : Fin 2) = (if t.val / 8 = 10 then 768 else 1024)
    ∧ win0_5.xsize (grid0.coords t) (0 : Fin 2) = 512 ∧ win0_5.xsize (grid0.coords t) (1 : Fin 2) = (if t.val / 8 = 10 then 768 else 1024) :=
  (by decide +kernel : ∀ t : Fin grid0.N,
    win0_1.xsize (grid0.coords t) (0 : Fin 2) = (if t.val / 8 = 10 then 768 else 1024) ∧ win0_1.xsize (grid0.coords t) (1 : Fin 2) = 1024
    ∧ win0_4.xsize (grid0.coords t) (0 : Fin 2) = 1 ∧ win0_4.xsize (grid0.coords t) (1 : Fin 2) = (if t.val / 8 = 10 then 768 else 1024)
    ∧ win0_5.xsize (grid0.coords t) (0 : Fin 2) = 512 ∧ win0_5.xsize (grid0.coords t) (1 : Fin 2) = (if t.val / 8 = 10 then 768 else 1024))

theorem lt88 (t : Fin cfg0.N) : t.val < 88 := lt_of_lt_of_eq t.isLt (show cfg0.N = 88 from N_0)

variable (m : (ℓ : Loc nD τ sig) → Buf (Elt F) ℓ)

/-- The U block at (r, k): U at row (t % 8) * 512 + r. -/
theorem iblk0_at (c : Dev nD) (t : Fin cfg0.N) (r : Fin 512) (k : Fin 1024) (h : t.val % 8 * 512 + r.val < 4096) :
    iblk m c 0 t (ix2 r k) = V m c main_arg0 (ix2 ⟨t.val % 8 * 512 + r.val, h⟩ k) := by
  show V m c main_arg0 ((win0_0.blk t).view.emb (ix2 r k)) = _
  refine congrArg _ (funext fun a => Fin.ext ?_)
  match a with
  | ⟨0, _⟩ => show win0_0.index t (0 : Fin 2) * 512 + 1 * r.val = t.val % 8 * 512 + r.val; rw [(idx_facts t).1]; omega
  | ⟨1, _⟩ => show win0_0.index t (1 : Fin 2) * 1024 + 1 * k.val = k.val; rw [(idx_facts t).2.1]; omega

/-- The scale row's block at (0, k): the row at k. -/
theorem iblk2_at (c : Dev nD) (t : Fin cfg0.N) (k : Fin 1024) :
    iblk m c 2 t (ix2 0 k) = V m c main_v0 (ix2 0 k) := by
  show V m c main_v0 ((win0_2.blk t).view.emb (ix2 0 k)) = _
  refine congrArg _ (funext fun a => Fin.ext ?_)
  match a with
  | ⟨0, _⟩ => show win0_2.index t (0 : Fin 2) * 1 + 1 * 0 = 0; rw [(idx_facts t).2.2.2.2.1]
  | ⟨1, _⟩ => show win0_2.index t (1 : Fin 2) * 1024 + 1 * k.val = k.val; rw [(idx_facts t).2.2.2.2.2.1]; omega

/-- The h block at (r, 0): the column at row (t % 8) * 512 + r. -/
theorem iblk3_at (c : Dev nD) (t : Fin cfg0.N) (r : Fin 512) (h : t.val % 8 * 512 + r.val < 4096) :
    iblk m c 3 t (ix2 r 0) = V m c main_v1 (ix2 ⟨t.val % 8 * 512 + r.val, h⟩ 0) := by
  show V m c main_v1 ((win0_3.blk t).view.emb (ix2 r 0)) = _
  refine congrArg _ (funext fun a => Fin.ext ?_)
  match a with
  | ⟨0, _⟩ => show win0_3.index t (0 : Fin 2) * 512 + 1 * r.val = t.val % 8 * 512 + r.val; rw [(idx_facts t).2.2.2.2.2.2.1]; omega
  | ⟨1, _⟩ => show win0_3.index t (1 : Fin 2) * 1 + 1 * 0 = 0; rw [(idx_facts t).2.2.2.2.2.2.2.1]

/-- A buffer the V block was fetched into, at a row inside the array: V at row (t / 8) * 1024 + r. -/
theorem fill1_at (c : Dev nD) (t : Fin cfg0.N) (d : S1024x1024.Idx → Elt F .f32) (r : Fin 1024) (k : Fin 1024)
    (h : t.val / 8 * 1024 + r.val < 11008) :
    win0_1.fill (grid0.coords t) d (iblk m c 1 t) (ix2 r k) = V m c main_arg1 (ix2 ⟨t.val / 8 * 1024 + r.val, h⟩ k) := by
  have hm : win0_1.moved (grid0.coords t) (ix2 r k) = true := (win0_1.moved_iff _ _).mpr (fun a => by
    match a with
    | ⟨0, _⟩ => show r.val < win0_1.xsize (grid0.coords t) (0 : Fin 2); rw [(xs_facts t).1]; split <;> omega
    | ⟨1, _⟩ => show k.val < win0_1.xsize (grid0.coords t) (1 : Fin 2); rw [(xs_facts t).2.1]; exact k.isLt)
  unfold Pipeline.Window.fill
  rw [dif_pos hm]
  show V m c main_arg1 ((win0_1.blk t).view.emb _) = _
  refine congrArg _ (funext fun a => Fin.ext ?_)
  match a with
  | ⟨0, _⟩ => show win0_1.index t (0 : Fin 2) * 1024 + 1 * r.val = t.val / 8 * 1024 + r.val; rw [(idx_facts t).2.2.1]; omega
  | ⟨1, _⟩ => show win0_1.index t (1 : Fin 2) * 1024 + 1 * k.val = k.val; rw [(idx_facts t).2.2.2.1]; omega

/-- A buffer the g block was fetched into, at a column inside the array: g at column (t / 8) * 1024 + q. -/
theorem fill4_at (c : Dev nD) (t : Fin cfg0.N) (d : S1x1024.Idx → Elt F .f32) (q : Fin 1024)
    (h : t.val / 8 * 1024 + q.val < 11008) :
    win0_4.fill (grid0.coords t) d (iblk m c 4 t) (ix2 0 q) = V m c main_v2 (ix2 0 ⟨t.val / 8 * 1024 + q.val, h⟩) := by
  have hm : win0_4.moved (grid0.coords t) (ix2 0 q) = true := (win0_4.moved_iff _ _).mpr (fun a => by
    match a with
    | ⟨0, _⟩ => show (0 : ℕ) < win0_4.xsize (grid0.coords t) (0 : Fin 2); rw [(xs_facts t).2.2.1]; omega
    | ⟨1, _⟩ => show q.val < win0_4.xsize (grid0.coords t) (1 : Fin 2); rw [(xs_facts t).2.2.2.1]; split <;> omega)
  unfold Pipeline.Window.fill
  rw [dif_pos hm]
  show V m c main_v2 ((win0_4.blk t).view.emb _) = _
  refine congrArg _ (funext fun a => Fin.ext ?_)
  match a with
  | ⟨0, _⟩ => show win0_4.index t (0 : Fin 2) * 1 + 1 * 0 = 0; rw [(idx_facts t).2.2.2.2.2.2.2.2.1]
  | ⟨1, _⟩ => show win0_4.index t (1 : Fin 2) * 1024 + 1 * q.val = t.val / 8 * 1024 + q.val; rw [(idx_facts t).2.2.2.2.2.2.2.2.2.1]; omega

end Cert.KernelIdeal.Body

end
-- ==== Proof.Spec.lean ====
/-
  The function both programs compute, on the extended reals.

  U is a 4096 x 1024 matrix, V an 11008 x 1024 matrix, l a row of 1024 entries, h a column of 4096
  entries and g a row of 11008 entries.  Entry (o, i) of the result is

      ( sum over k of  pick(U(o,k); l(k), 0 - l(k)) * pick(V(i,k); 1, -1) ) * g(i) * h(o)

  where pick(x; a, b) is a when 0 <= x and b otherwise: the hard sign of U scaled by l, contracted
  against the hard sign of V, then scaled by column and by row.  The reference spells the first
  factor pick(U(o,k); 1, -1) * l(k); the two spellings agree on every extended real
  (`pick_one_mul`): 1 * e = e and (-1) * e = 0 - e hold without any finiteness assumption.
-/
import Idealize.ShloMosaic.PureOps.Ideal
import Idealize.ShloMosaic.PureOps.Ideal.Laws
import Idealize.ShloMosaic.Lib.ValueIdx
import Idealize.ShloMosaic.Lib.IdealHost

noncomputable section

namespace Cert.SignMat

open Idealize.ShloMosaic Idealize.ShloMosaic.ValueIdx

/-- The three float literals of the two programs, kept as the words they are printed as. -/
abbrev zeroW : EReal := Ideal.ofBits .f32 0x00000000#32
abbrev oneW : EReal := Ideal.ofBits .f32 0x3F800000#32
abbrev moneW : EReal := Ideal.ofBits .f32 0xBF800000#32

theorem zeroW_eq : zeroW = 0 := Ideal.ofBits_zero_f32
theorem oneW_eq : oneW = 1 := Ideal.ofBits_one_f32
theorem moneW_eq : moneW = -1 := by
  show Ideal.ofBits .f32 0xBF800000#32 = -1
  have h : Ideal.ofBits .f32 0xBF800000#32 = ((-(1 : ℝ) : ℝ) : EReal) := by
    simp [Ideal.ofBits, Ideal.ieee, -EReal.coe_mul, -EReal.coe_neg]; norm_num
  rw [h]; simp

/-- `a` where `0 <= x`, else `b`: a select on the comparison "x is at least the zero word". -/
def pick (x a b : EReal) : EReal := Scalar.select (Ideal.cmp .oge x zeroW) a b

theorem pick_eq (x a b : EReal) : pick x a b = if 0 ≤ x then a else b := by
  unfold pick Scalar.select Ideal.cmp
  rw [zeroW_eq]
  by_cases h : (0 : EReal) ≤ x
  · simp [h]
  · simp [h]

/-- The sign times a scale is the scale or its negative: no finiteness needed. -/
theorem pick_one_mul (x e : EReal) : pick x oneW (-oneW) * e = pick x e (zeroW - e) := by
  rw [pick_eq, pick_eq, oneW_eq, zeroW_eq]
  by_cases h : (0 : EReal) ≤ x
  · rw [if_pos h, if_pos h, one_mul]
  · rw [if_neg h, if_neg h, neg_mul, one_mul, zero_sub]

/-- The result, entry by entry. -/
def G (U : (⟨2, ![4096, 1024]⟩ : Shape).Idx → EReal) (V : (⟨2, ![11008, 1024]⟩ : Shape).Idx → EReal)
    (l : Fin 1024 → EReal) (h : Fin 4096 → EReal) (g : Fin 11008 → EReal) :
    (⟨2, ![4096, 11008]⟩ : Shape).Idx → EReal :=
  fun i => ((∑ k : Fin 1024, pick (U (ix2 (i 0) k)) (l k) (zeroW - l k) * pick (V (ix2 (i 1) k)) oneW moneW) * g (i 1)) * h (i 0)

end Cert.SignMat

end
-- ==== Proof.IPay.lean ====
/-
  The two values the kernel body stores, read at an index on the extended reals.

  The scratch value is the hard sign of the V buffer, entry by entry.  The output value at (r, q) is the
  contraction over k of (the scale row at k, or its negative, by the sign of the U buffer at (r, k)) against
  row q of the scratch, times the g row at q, times the h column at r.  In particular entry (r, q) depends on
  the g row only at q and on the scratch only along its row q.
-/
import proofs.«171177_j24412594110603_2_alg».proof.Proof.Gen.KernelIdeal.Skeleton
import proofs.«171177_j24412594110603_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.SignMat
open Idealize.ShloMosaic Idealize.ShloMosaic.ValueIdx

/-- The sign stored in the scratch, at an index. -/
theorem pay1_apply (X : Vec Ideal S1024x1024 .f32) (j : S1024x1024.Idx) :
    k0_pay1 (F := Ideal) X j = pick (X j) oneW moneW := by
  unfold k0_pay1
  rw [shapeCast_self]
  rfl

/-- A one-row matrix stretched down 512 rows, at (r, q): the row's entry q. -/
theorem row_stretch {α : Type} (X : S1x1024.Idx → α) (r : Fin 512) (q : Fin 1024) :
    broadcastTo S512x1024 X Facts₀.broadcasts_S1x1024_S512x1024 (ix2 r q) = X (ix2 0 q) :=
  broadcastTo_apply X _ (ix2 r q) (ix2 0 q) (fun a => match a with
    | ⟨0, _⟩ => by show 0 = if (1 : Nat) = 1 then 0 else r.val; rw [if_pos rfl]
    | ⟨1, _⟩ => by show q.val = if (1024 : Nat) = 1 then 0 else q.val; rw [if_neg (by decide)])

/-- A one-column matrix stretched across 1024 columns, at (r, q): the column's entry r. -/
theorem col_stretch {α : Type} (X : S512x1.Idx → α) (r : Fin 512) (q : Fin 1024) :
    broadcastTo S512x1024 X Facts₀.broadcasts_S512x1_S512x1024 (ix2 r q) = X (ix2 r 0) :=
  broadcastTo_apply X _ (ix2 r q) (ix2 r 0) (fun a => match a with
    | ⟨0, _⟩ => by show r.val = if (512 : Nat) = 1 then 0 else r.val; rw [if_neg (by decide)]
    | ⟨1, _⟩ => by show 0 = if (1 : Nat) = 1 then 0 else q.val; rw [if_pos rfl])

theorem lhs_row (i : S512x1024.Idx) (q : dot_S512x1024_S1024x1024_S512x1024_1_1_0_0_n_n.contr.Idx) : (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem rhs_row (i : S512x1024.Idx) (q : dot_S512x1024_S1024x1024_S512x1024_1_1_0_0_n_n.contr.Idx) : (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl

/-- The product of a [512, 1024] matrix with the transpose of a [1024, 1024] one, accumulated from zero,
    at (r, q): the sum over k of left (r, k) times right (q, k). -/
theorem mm_apply (L : FVec Ideal S512x1024 .bf16) (R : FVec Ideal S1024x1024 .bf16) (r : Fin 512) (q : Fin 1024) :
    matmul dot_S512x1024_S1024x1024_S512x1024_1_1_0_0_n_n none L R (constant S512x1024 .f32 0x00000000#32) (ix2 r q)
      = ∑ k : Fin 1024, L (ix2 r k) * R (ix2 q k) := by
  refine (Ideal.matmul_constant_zero_apply dot_S512x1024_S1024x1024_S512x1024_1_1_0_0_n_n none L R (ix2 r q)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r q) ((contrEquiv1 dot_S512x1024_S1024x1024_S512x1024_1_1_0_0_n_n 1024 rfl rfl).symm k) = ix2 r k :=
    funext fun a => Fin.ext (by
      match a with
      | ⟨0, _⟩ => exact lhs_row _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r q) ((contrEquiv1 dot_S512x1024_S1024x1024_S512x1024_1_1_0_0_n_n 1024 rfl rfl).symm k) = ix2 q k :=
    funext fun a => Fin.ext (by
      match a with
      | ⟨0, _⟩ => exact rhs_row _ _
      | ⟨1, _⟩ => exact (dot_S512x1024_S1024x1024_S512x1024_1_1_0_0_n_n.rhsIdx_val_of_single rfl _ _).trans hk)
  rw [el, er]

/-- The block stored in the output buffer, at (r, q). -/
theorem pay2_apply (X0 : Vec Ideal S512x1024 .f32) (X2 : Vec Ideal S1x1024 .f32) (X3 : Vec Ideal S512x1 .f32)
    (X4 : Vec Ideal S1x1024 .f32) (S : Vec Ideal S1024x1024 .bf16) (r : Fin 512) (q : Fin 1024) :
    k0_pay2 (F := Ideal) X0 X2 X3 X4 S (ix2 r q)
      = ((∑ k : Fin 1024, pick (X0 (ix2 r k)) (X2 (ix2 0 k)) (zeroW - X2 (ix2 0 k)) * S (ix2 q k)) * X4 (ix2 0 q)) * X3 (ix2 r 0) := by
  unfold k0_pay2
  simp only [shapeCast_self]
  rw [mulf_apply, mulf_apply, row_stretch, col_stretch, mm_apply]
  refine congrArg (fun z => z * X4 (ix2 0 q) * X3 (ix2 r 0)) (Finset.sum_congr rfl fun k _ => ?_)
  rw [truncf_apply, select_apply, row_stretch, row_stretch]
  rfl

/-- Entry (r, q) of the stored block depends on the g row only at q and on the scratch only along row q. -/
theorem pay2_congr (X0 : Vec Ideal S512x1024 .f32) (X2 : Vec Ideal S1x1024 .f32) (X3 : Vec Ideal S512x1 .f32)
    (X4 X4' : Vec Ideal S1x1024 .f32) (S S' : Vec Ideal S1024x1024 .bf16) (r : Fin 512) (q : Fin 1024)
    (h4 : X4 (ix2 0 q) = X4' (ix2 0 q)) (hS : ∀ k : Fin 1024, S (ix2 q k) = S' (ix2 q k)) :
    k0_pay2 (F := Ideal) X0 X2 X3 X4 S (ix2 r q) = k0_pay2 (F := Ideal) X0 X2 X3 X4' S' (ix2 r q) := by
  rw [pay2_apply, pay2_apply, h4]
  refine congrArg (fun z => z * X4' (ix2 0 q) * X3 (ix2 r 0)) (Finset.sum_congr rfl fun k _ => ?_)
  rw [hS k]

end Cert.KernelIdeal.Pay

end
-- ==== Proof.IData.lean ====
/-
  The idealized kernel's run with its result named.

  Between grid points the scratch buffer holds, on the rows inside V, the hard sign of the current V tile
  (`ScrOK`): it is written at the first inner point of each outer step from the freshly fetched V block and only
  read at the other seven.  With that, the block the body stores into the output buffer at point t agrees, on the
  part of the buffer the write-back moves, with block t of one whole-array function `Gfin` of the arrays as the
  region finds them: entry (r, q) of the stored block depends on the g row only at q and on the scratch only
  along its row q, and both lie inside the arrays whenever column q of the block does.  The blocks written
  back cover the result array, so it ends at `Gfin`.
-/
import proofs.«171177_j24412594110603_2_alg».proof.Proof.IBody
import proofs.«171177_j24412594110603_2_alg».proof.Proof.IIndex
import proofs.«171177_j24412594110603_2_alg».proof.Proof.IPay
import proofs.«171177_j24412594110603_2_alg».proof.Proof.Spec

set_option maxRecDepth 16384

noncomputable section

namespace Cert.KernelIdeal.Body

open Cert.KernelIdeal Cert.KernelIdeal.Gen Cert.SignMat
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The result array as one function of the arrays the region finds. -/
def Gfin (c : Dev nD) : S4096x11008.Idx → EReal :=
  G (V m c main_arg0) (V m c main_arg1) (fun k => V m c main_v0 (ix2 0 k)) (fun o => V m c main_v1 (ix2 o 0))
    (fun i => V m c main_v2 (ix2 0 i))

/-- The scratch holds the sign of V tile `n / 8` on the rows inside V. -/
def ScrOK (c : Dev nD) (n : ℕ) (S : Vec Ideal S1024x1024 .bf16) : Prop :=
  ∀ (r k : Fin 1024) (hr : n / 8 * 1024 + r.val < 11008),
    S (ix2 r k) = pick (V m c main_arg1 (ix2 ⟨n / 8 * 1024 + r.val, hr⟩ k)) oneW moneW

/-- The sign of a freshly fetched V block is such a scratch. -/
theorem scr_first (c : Dev nD) (t : Fin cfg0.N) (d : S1024x1024.Idx → EReal) :
    ScrOK m c t.val (k0_pay1 (F := Ideal) (win0_1.fill (grid0.coords t) d (iblk m c 1 t))) := fun r k hr => by
  rw [Pay.pay1_apply, fill1_at m c t d r k hr]

/-- Within one outer step the tile does not change. -/
theorem scr_step (c : Dev nD) (n : ℕ) (hn : n % 8 ≠ 0) (S : Vec Ideal S1024x1024 .bf16) (h : ScrOK m c (n - 1) S) :
    ScrOK m c n S := by
  have e : (n - 1) / 8 = n / 8 := by omega
  unfold ScrOK at h ⊢
  rw [e] at h
  exact h

/-- The invariant between points: before the first point what the region lends; afterwards the scratch at the
    sign of the current tile, and the generator's register. -/
def PhiS (c : Dev nD) : ℕ → sProp 𝕄
  | 0 => Pipeline.ΦA spec0 c
  | n + 1 => iprop((∃ S, ⌜ScrOK m c n S⌝ ∗ owns (c : Thread nD τ) scM fullShare S) ∗ (∃ r, prngReg c r))

theorem PhiS_succ (c : Dev nD) (n : ℕ) :
    PhiS m c (n + 1) = iprop((∃ S, ⌜ScrOK m c n S⌝ ∗ owns (c : Thread nD τ) scM fullShare S) ∗ (∃ r, prngReg c r)) := rfl

theorem PhiS_pos (c : Dev nD) (n : ℕ) (hn : n ≠ 0) :
    PhiS m c n = iprop((∃ S, ⌜ScrOK m c (n - 1) S⌝ ∗ owns (c : Thread nD τ) scM fullShare S) ∗ (∃ r, prngReg c r)) := by
  cases n with
  | zero => exact absurd rfl hn
  | succ n => rfl

/-- At any position the scratch is held at some contents. -/
theorem PhiS_any (c : Dev nD) (n : ℕ) :
    PhiS m c n ⊢ iprop((∃ d, owns (c : Thread nD τ) scM fullShare d) ∗ (∃ r, prngReg c r)) := by
  cases n with
  | zero => rw [show PhiS m c 0 = Pipeline.ΦA spec0 c from rfl, PhiA_eq]
  | succ n =>
    rw [show PhiS m c (n + 1) = iprop((∃ S, ⌜ScrOK m c n S⌝ ∗ owns (c : Thread nD τ) scM fullShare S) ∗ (∃ r, prngReg c r)) from rfl]
    iintro ⟨⟨%S, %hS, HS⟩, Hg⟩
    isplitl [HS]
    · iexists S; iexact HS
    iexact Hg

/-- The proof data: the arrays as the region finds them; after the body each input window's buffer at its block
    (zero past the array's end where the block overhangs) and the output window's at its block of `Gfin`; the
    invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits (F := Ideal) .f32 0#32) (iblk m c 1 t)
    | ⟨2, _⟩ => iblk m c 2 t
    | ⟨3, _⟩ => iblk m c 3 t
    | ⟨4, _⟩ => win0_4.fill (grid0.coords t) (fun _ => Scalar.ofBits (F := Ideal) .f32 0#32) (iblk m c 4 t)
    | ⟨5, _⟩ => win0_5.fill (grid0.coords t) (fun _ => Scalar.ofBits (F := Ideal) .f32 0#32) ((win0_5.blk t).view.read (Elt Ideal) (Gfin m c))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => Scalar.ofBits (F := Ideal) .f32 0#32) (iblk m c 1 t) := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = win0_4.fill (grid0.coords t) (fun _ => Scalar.ofBits (F := Ideal) .f32 0#32) (iblk m c 4 t) := by dsimp only [dats]
theorem after0_5 (c : Dev nD) (t : Fin cfg0.N) :
    (dats m 0 c).after 5 t = win0_5.fill (grid0.coords t) (fun _ => Scalar.ofBits (F := Ideal) .f32 0#32) ((win0_5.blk t).view.read (Elt Ideal) (Gfin m c)) := by
  dsimp only [dats]

theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_1 (c : Dev nD) (t : Fin cfg0.N) (d) :
    (dats m 0 c).before 1 t d = win0_1.fill (grid0.coords t) d (iblk m c 1 t) :=
  before0_1_of m (dats m 0 c) (A_eq m c 1) (fun t => by rw [after0_1]; exact win0_1.cut_fill _ _ _) t d
theorem before0_4 (c : Dev nD) (t : Fin cfg0.N) (d) :
    (dats m 0 c).before 4 t d = win0_4.fill (grid0.coords t) d (iblk m c 4 t) :=
  before0_4_of m (dats m 0 c) (A_eq m c 4) (fun t => by rw [after0_4]; exact win0_4.cut_fill _ _ _) t d

/-! ## The stored block agrees with the block of `Gfin` on the part written back -/

theorem out_block (c : Dev nD) (t : Fin cfg0.N) (d4 : S1x1024.Idx → EReal) (S : Vec Ideal S1024x1024 .bf16)
    (hS : ScrOK m c t.val S) :
    win0_5.cut (grid0.coords t) (k0_pay2 (F := Ideal) (iblk m c 0 t) (iblk m c 2 t) (iblk m c 3 t)
        (win0_4.fill (grid0.coords t) d4 (iblk m c 4 t)) S)
      = (win0_5.blk t).view.read (Elt Ideal) (Gfin m c) := by
  funext y
  have hx := xs_facts t
  have hi := idx_facts t
  have h88 := lt88 t
  have hy0 : (y (0 : Fin 2)).val < win0_5.xsize (grid0.coords t) (0 : Fin 2) := (y (0 : Fin 2)).isLt
  have hy1 : (y (1 : Fin 2)).val < win0_5.xsize (grid0.coords t) (1 : Fin 2) := (y (1 : Fin 2)).isLt
  rw [hx.2.2.2.2.1] at hy0
  rw [hx.2.2.2.2.2] at hy1
  have hq1 : (y (1 : Fin 2)).val < 1024 := by split at hy1 <;> omega
  have hA : t.val % 8 * 512 + (y (0 : Fin 2)).val < 4096 := by omega
  have hB : t.val / 8 * 1024 + (y (1 : Fin 2)).val < 11008 := by split at hy1 <;> omega
  have hxin : win0_5.xinj (grid0.coords t) y = ix2 (n0 := 512) (n1 := 1024) ⟨(y (0 : Fin 2)).val, hy0⟩ ⟨(y (1 : Fin 2)).val, hq1⟩ :=
    funext fun a => Fin.ext (by
      match a with
      | ⟨0, _⟩ => rfl
      | ⟨1, _⟩ => rfl)
  have hemb : (win0_5.blk t).view.emb y
      = ix2 (n0 := 4096) (n1 := 11008) ⟨t.val % 8 * 512 + (y (0 : Fin 2)).val, hA⟩ ⟨t.val / 8 * 1024 + (y (1 : Fin 2)).val, hB⟩ :=
    funext fun a => Fin.ext (by
      match a with
      | ⟨0, _⟩ => show win0_5.index t (0 : Fin 2) * 512 + 1 * (y (0 : Fin 2)).val = t.val % 8 * 512 + (y (0 : Fin 2)).val; rw [hi.2.2.2.2.2.2.2.2.2.2.1]; omega
      | ⟨1, _⟩ => show win0_5.index t (1 : Fin 2) * 1024 + 1 * (y (1 : Fin 2)).val = t.val / 8 * 1024 + (y (1 : Fin 2)).val; rw [hi.2.2.2.2.2.2.2.2.2.2.2]; omega)
  show k0_pay2 (F := Ideal) (iblk m c 0 t) (iblk m c 2 t) (iblk m c 3 t) (win0_4.fill (grid0.coords t) d4 (iblk m c 4 t)) S
      (win0_5.xinj (grid0.coords t) y) = Gfin m c ((win0_5.blk t).view.emb y)
  rw [hxin, hemb, Pay.pay2_apply, iblk3_at m c t _ hA, fill4_at m c t d4 _ hB]
  show _ = ((∑ k : Fin 1024, pick (V m c main_arg0 (ix2 ⟨t.val % 8 * 512 + (y (0 : Fin 2)).val, hA⟩ k)) (V m c main_v0 (ix2 0 k)) (zeroW - V m c main_v0 (ix2 0 k))
      * pick (V m c main_arg1 (ix2 ⟨t.val / 8 * 1024 + (y (1 : Fin 2)).val, hB⟩ k)) oneW moneW)
      * V m c main_v2 (ix2 0 ⟨t.val / 8 * 1024 + (y (1 : Fin 2)).val, hB⟩)) * V m c main_v1 (ix2 ⟨t.val % 8 * 512 + (y (0 : Fin 2)).val, hA⟩ 0)
  refine congrArg (fun z => z * V m c main_v2 (ix2 0 ⟨t.val / 8 * 1024 + (y (1 : Fin 2)).val, hB⟩) * V m c main_v1 (ix2 ⟨t.val % 8 * 512 + (y (0 : Fin 2)).val, hA⟩ 0))
    (Finset.sum_congr rfl fun k _ => ?_)
  rw [iblk0_at m c t _ k hA, iblk2_at m c t k, hS ⟨(y (1 : Fin 2)).val, hq1⟩ k hB]

/-- So a buffer holding the stored block is the block of `Gfin` filled out by the buffer's own remaining entries. -/
theorem out_fill (c : Dev nD) (t : Fin cfg0.N) (d4 : S1x1024.Idx → EReal) (S : Vec Ideal S1024x1024 .bf16)
    (hS : ScrOK m c t.val S) :
    win0_5.fill (grid0.coords t) (k0_pay2 (F := Ideal) (iblk m c 0 t) (iblk m c 2 t) (iblk m c 3 t)
        (win0_4.fill (grid0.coords t) d4 (iblk m c 4 t)) S) ((win0_5.blk t).view.read (Elt Ideal) (Gfin m c))
      = k0_pay2 (F := Ideal) (iblk m c 0 t) (iblk m c 2 t) (iblk m c 3 t) (win0_4.fill (grid0.coords t) d4 (iblk m c 4 t)) S := by
  rw [← out_block m c t d4 S hS]; exact win0_5.fill_cut _ _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ (∃ d, owns (c : Thread nD τ) (st0_5 t) fullShare (win0_5.fill (grid0.coords t) d (win0_5.cut (grid0.coords t) ((dats m 0 c).after 5 t)))))

set_option maxHeartbeats 1600000 in
/-- The body at any point: by the inner coordinate, one of the two runs of the body; the scratch it leaves
    is the sign of the current tile, and the stored block is the block of `Gfin` where it is written back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, after0_0, after0_1, after0_2, after0_3, after0_4, after0_5,
    Window.cut_fill]
  rw [show (dats m 0 c).owesAt () t.succ = (dats m 0 c).owesAt () t.castSucc from rfl,
    show (dats m 0 c).Φ t.succ = PhiS m c (t.val + 1) from rfl,
    show (dats m 0 c).Φ t.castSucc = PhiS m c t.val from rfl, PhiS_succ]
  by_cases h0 : t.val % 8 = 0
  · refine (sep_mono (PhiS_any m c t.val) .rfl).trans ?_
    iintro ⟨⟨⟨%ds, HS⟩, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ ((firstInner_iff t).mpr h0) (iblk m c 0 t)
      (win0_1.fill (grid0.coords t) d1 (iblk m c 1 t)) (iblk m c 2 t) (iblk m c 3 t) (win0_4.fill (grid0.coords t) d4 (iblk m c 4 t))
      ((dats m 0 c).before 5 t d5) ds Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists _; isplitr
        · ipureintro; exact scr_first m c t d1
        iexact HS
      iexact Hg
    isplitl [Ho]; · iexact Ho
    isplitl [H0]; · iexact H0
    isplitl [H1]; · iexists d1; iexact H1
    isplitl [H2]; · iexact H2
    isplitl [H3]; · iexact H3
    isplitl [H4]; · iexists d4; iexact H4
    iexists _
    rw [out_fill m c t d4 _ (scr_first m c t d1)]
    iexact H5
  · rw [PhiS_pos m c t.val (fun e => h0 (by rw [e]))]
    iintro ⟨⟨⟨%S, %hS, HS⟩, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (fun h => h0 ((firstInner_iff t).mp h)) (iblk m c 0 t)
      (win0_1.fill (grid0.coords t) d1 (iblk m c 1 t)) (iblk m c 2 t) (iblk m c 3 t) (win0_4.fill (grid0.coords t) d4 (iblk m c 4 t))
      ((dats m 0 c).before 5 t d5) S Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists S; isplitr
        · ipureintro; exact scr_step m c t.val h0 S hS
        iexact HS
      iexact Hg
    isplitl [Ho]; · iexact Ho
    isplitl [H0]; · iexact H0
    isplitl [H1]; · iexists d1; iexact H1
    isplitl [H2]; · iexact H2
    isplitl [H3]; · iexact H3
    isplitl [H4]; · iexists d4; iexact H4
    iexists _
    rw [out_fill m c t d4 S (scr_step m c t.val h0 S hS)]
    iexact H5

/-- The body obligation at every point. -/
theorem body_obligation (c : Dev nD) :
    BodyObligationLoose (dats m 0 c) (defs₀ (F := Ideal)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  exact PhiS_any m c _

set_option backward.isDefEq.respectTransparency.types false in
/-- Every weakly fair execution of the idealized program terminates without a fault, every array of the
    pipeline ending at what the write-backs leave and every bypassing buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

end Cert.KernelIdeal.Body

end
-- ==== Proof.IFinal.lean ====
/-
  The result array after the idealized kernel's run, as a function of the five arguments.

  Every entry (a, b) of the result lies in the block written back at the point with inner coordinate a / 512 and
  outer coordinate b / 1024, so the array ends at `Gfin`.  The three arrays the host lines before the region
  produce are the arguments re-laid: the scale row is l as a [1, 1024] matrix, the h column h as [4096, 1], the
  g row g as [1, 11008]; read at an entry they are the vectors' entries.
-/
import proofs.«171177_j24412594110603_2_alg».proof.Proof.IData
import Idealize.ShloMosaic.Lib.StableHlo.Run

set_option maxRecDepth 16384

noncomputable section

namespace Cert.KernelIdeal.Body

open Cert.KernelIdeal Cert.KernelIdeal.Gen Cert.SignMat
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- What point `t` writes back is block `t` of `Gfin`. -/
theorem flushed5_eq (c : Dev nD) (t : Fin cfg0.N) :
    (dats m 0 c).flushed 5 t = ((cfg0.win 5).blk t).view.read (Elt Ideal) (Gfin m c) := by
  show (cfg0.win 5).cut (grid0.coords t) ((dats m 0 c).after 5 t) = _
  rw [after0_5]
  exact win0_5.cut_fill _ _ _

/-- An index of the result is in point `t`'s block iff each coordinate is in the block's range inside the array. -/
theorem mem_blk5 (t : Fin cfg0.N) (i : S4096x11008.Idx) :
    i ∈ ((cfg0.win 5).blk t).view.set ↔ ∀ a : Fin 2, win0_5.index t a * S512x1024.size a ≤ (i a).val
      ∧ (i a).val < win0_5.index t a * S512x1024.size a + win0_5.xsize (grid0.coords t) a := by
  show i ∈ ((View.whole main_v3).slice (win0_5.rect t)).set ↔ _
  rw [View.set_slice_whole, Rect.mem_set_unit]
  exact Iff.rfl

/-- Every entry of the result is in some written-back block. -/
theorem cover5 (i : S4096x11008.Idx) :
    ∃ t : Fin cfg0.N, (cfg0.win 5).flush t = true ∧ i ∈ ((cfg0.win 5).blk t).view.set := by
  have h0 : (i (0 : Fin 2)).val < 4096 := (i 0).isLt
  have h1 : (i (1 : Fin 2)).val < 11008 := (i 1).isLt
  have ht : (i (1 : Fin 2)).val / 1024 * 8 + (i (0 : Fin 2)).val / 512 < cfg0.N := by
    rw [show cfg0.N = 88 from N_0]; omega
  refine ⟨⟨(i (1 : Fin 2)).val / 1024 * 8 + (i (0 : Fin 2)).val / 512, ht⟩, flush0_5 _, ?_⟩
  rw [mem_blk5]
  have hi := idx_facts ⟨(i (1 : Fin 2)).val / 1024 * 8 + (i (0 : Fin 2)).val / 512, ht⟩
  have hx := xs_facts ⟨(i (1 : Fin 2)).val / 1024 * 8 + (i (0 : Fin 2)).val / 512, ht⟩
  intro a
  match a with
  | ⟨0, _⟩ =>
    show win0_5.index _ (0 : Fin 2) * 512 ≤ (i (0 : Fin 2)).val ∧ (i (0 : Fin 2)).val < win0_5.index _ (0 : Fin 2) * 512 + win0_5.xsize _ (0 : Fin 2)
    rw [hi.2.2.2.2.2.2.2.2.2.2.1, hx.2.2.2.2.1]
    dsimp only
    omega
  | ⟨1, _⟩ =>
    show win0_5.index _ (1 : Fin 2) * 1024 ≤ (i (1 : Fin 2)).val ∧ (i (1 : Fin 2)).val < win0_5.index _ (1 : Fin 2) * 1024 + win0_5.xsize _ (1 : Fin 2)
    rw [hi.2.2.2.2.2.2.2.2.2.2.2, hx.2.2.2.2.2]
    dsimp only
    split <;> omega

/-- The result array after the run. -/
theorem final5 (c : Dev nD) : (dats m 0 c).arrAt 5 cfg0.N = Gfin m c :=
  (dats m 0 c).arrAt_eq_of_cover 5 (Gfin m c) (fun t _ => flushed5_eq m c t) cover5

/-! ## The host lines before the region -/

theorem V_v0 (c : Dev nD) : (V m c main_v0 : S1x1024.Idx → EReal)
    = shapeCast S1x1024 (m ((c : Thread nD τ).loc main_arg4)) Facts₀.shapeCasts_S1024_S1x1024 := by
  dsimp only [V, hostOps0]; after_results; rfl
theorem V_v1 (c : Dev nD) : (V m c main_v1 : S4096x1.Idx → EReal)
    = shapeCast S4096x1 (m ((c : Thread nD τ).loc main_arg2)) Facts₀.shapeCasts_S4096_S4096x1 := by
  dsimp only [V, hostOps0]; after_results; rfl
theorem V_v2 (c : Dev nD) : (V m c main_v2 : S1x11008.Idx → EReal)
    = shapeCast S1x11008 (m ((c : Thread nD τ).loc main_arg3)) Facts₀.shapeCasts_S11008_S1x11008 := by
  dsimp only [V, hostOps0]; after_results; rfl

theorem V_v0_at (c : Dev nD) (k : Fin 1024) : V m c main_v0 (ix2 0 k) = m ((c : Thread nD τ).loc main_arg4) (ix1 k) := by
  rw [V_v0]
  exact shapeCast_apply _ _ (ix2 (n0 := 1) (n1 := 1024) 0 k) (ix1 k) (by rw [Shape.rowMajor_val_one, Shape.rowMajor_val_two]; show k.val = 0 * 1024 + k.val; omega)
theorem V_v1_at (c : Dev nD) (o : Fin 4096) : V m c main_v1 (ix2 o 0) = m ((c : Thread nD τ).loc main_arg2) (ix1 o) := by
  rw [V_v1]
  exact shapeCast_apply _ _ (ix2 (n0 := 4096) (n1 := 1) o 0) (ix1 o) (by rw [Shape.rowMajor_val_one, Shape.rowMajor_val_two]; show o.val = o.val * 1 + 0; omega)
theorem V_v2_at (c : Dev nD) (i : Fin 11008) : V m c main_v2 (ix2 0 i) = m ((c : Thread nD τ).loc main_arg3) (ix1 i) := by
  rw [V_v2]
  exact shapeCast_apply _ _ (ix2 (n0 := 1) (n1 := 11008) 0 i) (ix1 i) (by rw [Shape.rowMajor_val_one, Shape.rowMajor_val_two]; show i.val = 0 * 11008 + i.val; omega)

/-- `Gfin` in the five arguments. -/
theorem Gfin_eq (c : Dev nD) : Gfin m c
    = G (m ((c : Thread nD τ).loc main_arg0)) (m ((c : Thread nD τ).loc main_arg1))
        (fun k => m ((c : Thread nD τ).loc main_arg4) (ix1 k)) (fun o => m ((c : Thread nD τ).loc main_arg2) (ix1 o))
        (fun i => m ((c : Thread nD τ).loc main_arg3) (ix1 i)) := by
  have e0 : (fun k : Fin 1024 => V m c main_v0 (ix2 0 k)) = fun k => m ((c : Thread nD τ).loc main_arg4) (ix1 k) :=
    funext (V_v0_at m c)
  have e1 : (fun o : Fin 4096 => V m c main_v1 (ix2 o 0)) = fun o => m ((c : Thread nD τ).loc main_arg2) (ix1 o) :=
    funext (V_v1_at m c)
  have e2 : (fun i : Fin 11008 => V m c main_v2 (ix2 0 i)) = fun i => m ((c : Thread nD τ).loc main_arg3) (ix1 i) :=
    funext (V_v2_at m c)
  show G (V m c main_arg0) (V m c main_arg1) (fun k => V m c main_v0 (ix2 0 k)) (fun o => V m c main_v1 (ix2 o 0))
    (fun i => V m c main_v2 (ix2 0 i)) = _
  rw [e0, e1, e2, V_main_arg0, V_main_arg1]

/-- The idealized kernel's run with its result named and its arguments kept. -/
theorem run : θ_run defs (onTc (τ := τ) (main (F := Ideal))) ⟨m, fun _ => 0, ρ⟩ fun r => ∀ c : Dev nD,
      r.2.mem ((c.tc : Thread nD τ).loc main_v3)
        = G (m ((c : Thread nD τ).loc main_arg0)) (m ((c : Thread nD τ).loc main_arg1))
            (fun k => m ((c : Thread nD τ).loc main_arg4) (ix1 k)) (fun o => m ((c : Thread nD τ).loc main_arg2) (ix1 o))
            (fun i => m ((c : Thread nD τ).loc main_arg3) (ix1 i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(((h c).1 5).trans (final5 m c)).trans (Gfin_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Body

end
-- ==== Proof.RefValue.lean ====
/-
  The reference program's result is the specification function, entry by entry.

  Read at the entry (o, c), the reference's composed term is

      ( ( sum over k of  (pick(U(o,k); 1, -1) * l(k)) * pick(V(c,k); 1, -1) ) * g(c) ) * h(o)

  where pick(x; a, b) is a when 0 <= x and b otherwise.  The first factor of each summand is
  pick(U(o,k); l(k), 0 - l(k)) on every extended real (`Cert.SignMat.pick_one_mul`), and the negated
  word of 1 is the word of -1, so the sum is the one `Cert.SignMat.G` is defined by.  The broadcasts
  only re-index: each reads its operand at the coordinates the result index names.
-/
import proofs.«171177_j24412594110603_2_alg».proof.Proof.Gen.ReferenceIdeal.Run
import proofs.«171177_j24412594110603_2_alg».proof.Proof.Gen.ReferenceIdeal.Read
import proofs.«171177_j24412594110603_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx Cert.SignMat

/-! ## The operand indices of the layout operations and of the contraction, by coordinates -/

/-- The contraction reads its left operand at row `o`, column `k`. -/
theorem lidx_ix2 (o : Fin 4096) (c : Fin 11008) (k : Fin 1024) : lidx_main_v15 (ix2 o c) k = ix2 o k :=
  funext fun a => match a with | ⟨0, _⟩ => rfl | ⟨1, _⟩ => rfl

/-- The contraction reads its right operand at row `c`, column `k`. -/
theorem ridx_ix2 (o : Fin 4096) (c : Fin 11008) (k : Fin 1024) : ridx_main_v15 (ix2 o c) k = ix2 c k :=
  funext fun a => match a with | ⟨0, _⟩ => rfl | ⟨1, _⟩ => rfl

/-- The row `l`, broadcast over the rows of the left matrix, is read at the column. -/
theorem idx_l (o : Fin 4096) (k : Fin 1024) : idx_main_v12 (idx_main_v13 (ix2 o k)) = ix1 k :=
  funext fun a => match a with | ⟨0, _⟩ => rfl

/-- The row `g`, broadcast over the rows of the result, is read at the column. -/
theorem idx_g (o : Fin 4096) (c : Fin 11008) : idx_main_v16 (idx_main_v17 (ix2 o c)) = ix1 c :=
  funext fun a => match a with | ⟨0, _⟩ => rfl

/-- The column `h`, broadcast over the columns of the result, is read at the row. -/
theorem idx_h (o : Fin 4096) (c : Fin 11008) : idx_main_v19 (idx_main_v20 (ix2 o c)) = ix1 o :=
  funext fun a => match a with | ⟨0, _⟩ => rfl

/-! ## The two factors of a summand -/

/-- The negated word of 1 is the word of -1. -/
theorem neg_oneW : -oneW = moneW := by rw [oneW_eq, moneW_eq]

/-- The left factor: the hard sign of `U(o,k)` times `l(k)` is `l(k)` or `0 - l(k)`. -/
theorem left_at (U : FVec Ideal S4096x1024 .f32) (l : FVec Ideal S1024 .f32) (o : Fin 4096) (k : Fin 1024) :
    val_main_v14 (F := Ideal) U l (ix2 o k) = pick (U (ix2 o k)) (l (ix1 k)) (zeroW - l (ix1 k)) := by
  rw [val_main_v14_apply, val_main_v5_apply, val_main_v1_apply, val_main_v0_apply, val_main_cst_apply,
    val_main_v2_apply, val_main_cst_0_apply, val_main_v4_apply, val_main_v3_apply, val_main_cst_1_apply,
    val_main_v13_apply, val_main_v12_apply, idx_l]
  exact pick_one_mul (U (ix2 o k)) (l (ix1 k))

/-- The right factor: the hard sign of `V(c,k)`. -/
theorem right_at (V : FVec Ideal S11008x1024 .f32) (c : Fin 11008) (k : Fin 1024) :
    val_main_v11 (F := Ideal) V (ix2 c k) = pick (V (ix2 c k)) oneW moneW := by
  rw [val_main_v11_apply, val_main_v7_apply, val_main_v6_apply, val_main_cst_2_apply, val_main_v8_apply,
    val_main_cst_3_apply, val_main_v10_apply, val_main_v9_apply, val_main_cst_4_apply]
  show pick (V (ix2 c k)) oneW (-oneW) = pick (V (ix2 c k)) oneW moneW
  rw [neg_oneW]

/-! ## The result at an entry, and as a whole -/

/-- The reference's result at the entry `(o, c)` is `G` there. -/
theorem val_at (U : FVec Ideal S4096x1024 .f32) (V : FVec Ideal S11008x1024 .f32) (h : FVec Ideal S4096 .f32)
    (g : FVec Ideal S11008 .f32) (l : FVec Ideal S1024 .f32) (o : Fin 4096) (c : Fin 11008) :
    val_main_v21 (F := Ideal) U V h g l (ix2 o c)
      = G U V (fun k => l (ix1 k)) (fun o => h (ix1 o)) (fun i => g (ix1 i)) (ix2 o c) := by
  rw [val_main_v21_apply, val_main_v18_apply, val_main_v15_apply, val_main_v17_apply, val_main_v16_apply,
    val_main_v20_apply, val_main_v19_apply, idx_g, idx_h]
  have hs : (∑ k : Fin 1024, val_main_v14 (F := Ideal) U l (lidx_main_v15 (ix2 o c) k)
        * val_main_v11 (F := Ideal) V (ridx_main_v15 (ix2 o c) k))
      = ∑ k : Fin 1024, pick (U (ix2 o k)) (l (ix1 k)) (zeroW - l (ix1 k)) * pick (V (ix2 c k)) oneW moneW :=
    Finset.sum_congr rfl fun k _ => by rw [lidx_ix2, ridx_ix2, left_at, right_at]
  rw [hs]
  rfl

/-- The reference program's result term, at the ideal instance, is `G` of its arguments. -/
theorem result_eq (U : FVec Ideal S4096x1024 .f32) (V : FVec Ideal S11008x1024 .f32) (h : FVec Ideal S4096 .f32) (g : FVec Ideal S11008 .f32) (l : FVec Ideal S1024 .f32) :
    mulf (mulf (Host.dotGeneral dot_S4096x1024_S11008x1024_S4096x11008_1_1_0_0_n_n none (mulf (select (cmpf .oge U (broadcastInDim S4096x1024 ![] bcast_S_S4096x1024 (constant S_ .f32 0x00000000#32))) (broadcastInDim S4096x1024 ![] bcast_S_S4096x1024 (constant S_ .f32 0x3F800000#32)) (Host.negf (broadcastInDim S4096x1024 ![] bcast_S_S4096x1024 (constant S_ .f32 0x3F800000#32)))) (broadcastInDim S4096x1024 ![0, 1] bcast_S1x1024_S4096x1024_0_1 (broadcastInDim S1x1024 ![1] bcast_S1024_S1x1024_1 l))) (select (cmpf .oge V (broadcastInDim S11008x1024 ![] bcast_S_S11008x1024 (constant S_ .f32 0x00000000#32))) (broadcastInDim S11008x1024 ![] bcast_S_S11008x1024 (constant S_ .f32 0x3F800000#32)) (Host.negf (broadcastInDim S11008x1024 ![] bcast_S_S11008x1024 (constant S_ .f32 0x3F800000#32))))) (broadcastInDim S4096x11008 ![0, 1] bcast_S1x11008_S4096x11008_0_1 (broadcastInDim S1x11008 ![1] bcast_S11008_S1x11008_1 g))) (broadcastInDim S4096x11008 ![0, 1] bcast_S4096x1_S4096x11008_0_1 (broadcastInDim S4096x1 ![0] bcast_S4096_S4096x1_0 h))
      = Cert.SignMat.G U V (fun k => l (Idealize.ShloMosaic.ValueIdx.ix1 k)) (fun o => h (Idealize.ShloMosaic.ValueIdx.ix1 o)) (fun i => g (Idealize.ShloMosaic.ValueIdx.ix1 i)) :=
  (val_main_v21_eq (F := Ideal) U V h g l).trans (funext fun i => by
    obtain ⟨o, c, rfl⟩ : ∃ (o : Fin 4096) (c : Fin 11008), i = ix2 o c := ⟨i 0, i 1, eq_ix2 i⟩
    exact val_at U V h g l o c)

end Cert.ReferenceIdeal.RefValue

end
-- ==== Proof.lean ====
/-
  The certificate: a sign-times-scale matrix product, tiled over an 11 x 8 grid, against its one-line
  reference.

  Both programs compute, for U [4096, 1024], V [11008, 1024], a scale row l [1024], a column h [4096] and a row
  g [11008], the array whose entry (o, i) is
      ( sum over k of  s(U(o,k)) l(k) * s(V(i,k)) ) * g(i) * h(o),     s(x) = 1 where 0 <= x, else -1.
  The kernel selects l(k) or 0 - l(k) by the sign of U where the reference multiplies the sign by l(k); the two
  agree on every extended real, so no finiteness of the inputs is used.  The kernel keeps the sign of the
  current V tile in a scratch buffer across the eight inner points of an outer step, and the last V tile,
  g tile and result tiles overhang their arrays; the proof follows the scratch with an invariant on the
  rows inside V and names the result block only on the part each write-back moves.

  The frames of the three programs: the word-level kernel's from a run that names nothing of the result
  (Proof/KFrame.lean); the idealized kernel's and the reference's from the runs that name their results.
  The idealization rewrote nothing, so its soundness conjunct is trivial.
-/
import proofs.«171177_j24412594110603_2_alg».proof.Defs
import proofs.«171177_j24412594110603_2_alg».proof.Proof.Gen.Kernel
import proofs.«171177_j24412594110603_2_alg».proof.Proof.Gen.KernelIdeal
import proofs.«171177_j24412594110603_2_alg».proof.Proof.Gen.ReferenceIdeal
import proofs.«171177_j24412594110603_2_alg».proof.Proof.Gen.Pre_finite_inputs
import proofs.«171177_j24412594110603_2_alg».proof.Proof.Gen.ReferenceIdeal.Run
import proofs.«171177_j24412594110603_2_alg».proof.Proof.KFrame
import proofs.«171177_j24412594110603_2_alg».proof.Proof.IFinal
import proofs.«171177_j24412594110603_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ =>
  (θ_run Cert.KernelIdeal.defs _ _).mono (fun _ h c => (h c).2) (Cert.KernelIdeal.Body.run m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On the extended reals the kernel's result array and the reference's are the one function of the arguments. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
